-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : IVec S600000 32) (main_arg3 : IVec S600000 32) (main_arg4 : FVec F S128x256 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S600000 : Shape := ⟨1, ![600000]⟩
abbrev S128x256 : Shape := ⟨2, ![128, 256]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S256x128 : Shape := ⟨2, ![256, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 31
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S600000, .i32⟩
  | .hbm, ⟨3, _⟩ => ⟨S600000, .i32⟩
  | .hbm, ⟨4, _⟩ => ⟨S128x256, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S50000x1, .f32⟩
  | .hbm, ⟨26, _⟩ => ⟨S256x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x256 : Shape := ⟨2, ![128, 256]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S600000, .i32⟩
  | .hbm, ⟨3, _⟩ => ⟨S600000, .i32⟩
  | .hbm, ⟨4, _⟩ => ⟨S128x256, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x256, .f32⟩
  | .hbm, ⟨32, _⟩ => ⟨S256x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SageSpec.lean ====
/-
  A mean-aggregation graph layer as ONE function of its arrays, on the extended reals.

  For a destination row r and an output column o, with h the rows' own features, N the neighbours' features summed
  row by row, D the rows' in-degrees, W the [128, 256] weight (its first 128 columns act on a row's own features,
  its last 128 on the neighbours' mean) and b the bias:

      layer(r, o) = Σ_{k<128} h(r, k) · W(o, k)  +  Σ_{k<128} (N(r, k) / max(D(r), 1)) · W(o, 128 + k)  +  b(o).

  `layerSplit` is the same number written over the arrays a tiled call is handed: the degree as a column [50000, 1],
  the transposed weight cut into its two [128, 128] halves, the bias as a row [1, 128]. `layerSplit_eq_layer` says so,
  given how those arrays read (each an entry of D, W or b). `sum_halves` is the one law the comparison with a single
  256-term contraction needs: a sum over 256 indices is the sum over the first 128 plus the sum over the last 128,
  in any commutative monoid — on the extended reals too, with no finiteness asked, since nothing is distributed or
  cancelled.
-/
import Idealize.ShloMosaic.PureOps.Ideal
import Idealize.ShloMosaic.Lib.ValueIdx

noncomputable section

namespace Cert.Sage

open Idealize.ShloMosaic Idealize.ShloMosaic.ValueIdx

/-- Column k of the weight's first half. -/
abbrev lo (k : Fin 128) : Fin 256 := ⟨k.val, by omega⟩
/-- Column 128 + k of the weight: column k of its second half. -/
abbrev hi (k : Fin 128) : Fin 256 := ⟨128 + k.val, by omega⟩

/-- A sum over 256 indices is the sum over the first 128 plus the sum over the last 128. -/
theorem sum_halves {M : Type*} [AddCommMonoid M] (f : Fin 256 → M) :
    ∑ j : Fin 256, f j = ∑ k : Fin 128, f (lo k) + ∑ k : Fin 128, f (hi k) :=
  Fin.sum_univ_add (a := 128) (b := 128) f

/-- The float 1.0, as the extended real its word denotes. -/
abbrev one : EReal := Ideal.ofBits .f32 0x3F800000#32

/-- A row's neighbour mean at feature k: the summed feature over the in-degree, a degree below one counted as one. -/
def mean (N : (⟨2, ![50000, 128]⟩ : Shape).Idx → EReal) (D : (⟨1, ![50000]⟩ : Shape).Idx → EReal)
    (r : Fin 50000) (k : Fin 128) : EReal :=
  Ideal.div (N (ix2 r k)) (max (D (ix1 r)) one)

/-- The layer's output at row r, column o. -/
def layerAt (h N : (⟨2, ![50000, 128]⟩ : Shape).Idx → EReal) (D : (⟨1, ![50000]⟩ : Shape).Idx → EReal)
    (W : (⟨2, ![128, 256]⟩ : Shape).Idx → EReal) (b : (⟨1, ![128]⟩ : Shape).Idx → EReal) (r : Fin 50000) (o : Fin 128) : EReal :=
  (∑ k : Fin 128, h (ix2 r k) * W (ix2 o (lo k))) + (∑ k : Fin 128, mean N D r k * W (ix2 o (hi k))) + b (ix1 o)

/-- The layer's output as an array. -/
def layer (h N : (⟨2, ![50000, 128]⟩ : Shape).Idx → EReal) (D : (⟨1, ![50000]⟩ : Shape).Idx → EReal)
    (W : (⟨2, ![128, 256]⟩ : Shape).Idx → EReal) (b : (⟨1, ![128]⟩ : Shape).Idx → EReal) :
    (⟨2, ![50000, 128]⟩ : Shape).Idx → EReal :=
  fun i => layerAt h N D W b (i 0) (i 1)

theorem layer_apply (h N : (⟨2, ![50000, 128]⟩ : Shape).Idx → EReal) (D : (⟨1, ![50000]⟩ : Shape).Idx → EReal)
    (W : (⟨2, ![128, 256]⟩ : Shape).Idx → EReal) (b : (⟨1, ![128]⟩ : Shape).Idx → EReal) (r : Fin 50000) (o : Fin 128) :
    layer h N D W b (ix2 r o) = layerAt h N D W b r o := rfl

/-- The same output at (r, o) over the arrays a tiled call is handed: the degree as a column, the transposed weight's
    two halves, the bias as a row. -/
def layerSplitAt (h N : (⟨2, ![50000, 128]⟩ : Shape).Idx → EReal) (D1 : (⟨2, ![50000, 1]⟩ : Shape).Idx → EReal)
    (Wd Wn : (⟨2, ![128, 128]⟩ : Shape).Idx → EReal) (b2 : (⟨2, ![1, 128]⟩ : Shape).Idx → EReal) (r : Fin 50000) (o : Fin 128) : EReal :=
  (∑ k : Fin 128, h (ix2 r k) * Wd (ix2 k o))
    + (∑ k : Fin 128, Ideal.div (N (ix2 r k)) (max (D1 (ix2 r (0 : Fin 1))) one) * Wn (ix2 k o))
    + b2 (ix2 (0 : Fin 1) o)

/-- The split form as an array. -/
def layerSplit (h N : (⟨2, ![50000, 128]⟩ : Shape).Idx → EReal) (D1 : (⟨2, ![50000, 1]⟩ : Shape).Idx → EReal)
    (Wd Wn : (⟨2, ![128, 128]⟩ : Shape).Idx → EReal) (b2 : (⟨2, ![1, 128]⟩ : Shape).Idx → EReal) :
    (⟨2, ![50000, 128]⟩ : Shape).Idx → EReal :=
  fun i => layerSplitAt h N D1 Wd Wn b2 (i 0) (i 1)

theorem layerSplit_apply (h N : (⟨2, ![50000, 128]⟩ : Shape).Idx → EReal) (D1 : (⟨2, ![50000, 1]⟩ : Shape).Idx → EReal)
    (Wd Wn : (⟨2, ![128, 128]⟩ : Shape).Idx → EReal) (b2 : (⟨2, ![1, 128]⟩ : Shape).Idx → EReal) (r : Fin 50000) (o : Fin 128) :
    layerSplit h N D1 Wd Wn b2 (ix2 r o) = layerSplitAt h N D1 Wd Wn b2 r o := rfl

/-- When the column is the degree, the two halves are the weight's columns transposed and the row is the bias, the
    split form is the layer. -/
theorem layerSplit_eq_layer (h N : (⟨2, ![50000, 128]⟩ : Shape).Idx → EReal) (D : (⟨1, ![50000]⟩ : Shape).Idx → EReal)
    (W : (⟨2, ![128, 256]⟩ : Shape).Idx → EReal) (b : (⟨1, ![128]⟩ : Shape).Idx → EReal)
    (D1 : (⟨2, ![50000, 1]⟩ : Shape).Idx → EReal) (Wd Wn : (⟨2, ![128, 128]⟩ : Shape).Idx → EReal)
    (b2 : (⟨2, ![1, 128]⟩ : Shape).Idx → EReal)
    (hD : ∀ r : Fin 50000, D1 (ix2 r (0 : Fin 1)) = D (ix1 r))
    (hWd : ∀ (k o : Fin 128), Wd (ix2 k o) = W (ix2 o (lo k)))
    (hWn : ∀ (k o : Fin 128), Wn (ix2 k o) = W (ix2 o (hi k)))
    (hb : ∀ o : Fin 128, b2 (ix2 (0 : Fin 1) o) = b (ix1 o)) :
    layerSplit h N D1 Wd Wn b2 = layer h N D W b := by
  funext i
  obtain ⟨r, o, rfl⟩ : ∃ (r : Fin 50000) (o : Fin 128), i = ix2 r o := ⟨i 0, i 1, eq_ix2 i⟩
  rw [layerSplit_apply, layer_apply]
  simp only [layerSplitAt, layerAt, mean, hD, hWd, hWn, hb]

end Cert.Sage

end
-- ==== Proof.SageRef.lean ====
/-
  The plain program computes the layer.

  It concatenates each row's own features with its neighbour mean into 256 features, contracts them with the 256
  columns of the weight, and adds the bias. Index by index: the first 128 of the concatenated features are the row's
  own, the last 128 its neighbour mean (summed features over the degree floored at one, the floor taken on the degree
  vector and then stretched over the row); the weight is read transposed; and the 256-term sum is the sum of its two
  halves. N and D below are the neighbour sums and the degrees as the program's own scatter-adds produce them: they
  are not opened.
-/
import proofs.«132158_j61735859912840_2_alg».proof.Proof.Gen.ReferenceIdeal.Read
import proofs.«132158_j61735859912840_2_alg».proof.Proof.SageSpec
import Idealize.ShloMosaic.Lib.Pipeline.Value

noncomputable section

namespace Cert.Sage.Ref

open Cert.ReferenceIdeal Cert.ReferenceIdeal.Read Idealize.ShloMosaic Idealize.ShloMosaic.ValueIdx

/-! ## Where each stage reads its operand -/

theorem lidx_eq (r : Fin 50000) (o : Fin 128) (j : Fin 256) : lidx_main_v21 (ix2 r o) j = ix2 r j :=
  funext fun a => Fin.ext (by match a with | ⟨0, _⟩ => rfl | ⟨1, _⟩ => rfl)

theorem ridx_eq (r : Fin 50000) (o : Fin 128) (j : Fin 256) : ridx_main_v21 (ix2 r o) j = ix2 j o :=
  funext fun a => Fin.ext (by match a with | ⟨0, _⟩ => rfl | ⟨1, _⟩ => rfl)

theorem widx_eq (j : Fin 256) (o : Fin 128) : idx_main_v20 (ix2 j o) = ix2 o j :=
  funext fun a => Fin.ext (by match a with | ⟨0, _⟩ => rfl | ⟨1, _⟩ => rfl)

theorem bidx_eq (r : Fin 50000) (o : Fin 128) : idx_main_v22 (idx_main_v23 (ix2 r o)) = ix1 o :=
  funext fun a => Fin.ext (by match a with | ⟨0, _⟩ => rfl)

theorem didx_eq (r : Fin 50000) (k : Fin 128) : idx_main_v16 (idx_main_v17 (ix2 r k)) = ix1 r :=
  funext fun a => Fin.ext (by match a with | ⟨0, _⟩ => rfl)

/-! ## The stages at an index -/

/-- The divisor at (r, k): the row's degree floored at one. -/
theorem floor_apply (x3 : (⟨S600000, .i32⟩ : BufTy).Contents (Elt Ideal)) (r : Fin 50000) (k : Fin 128) :
    val_main_v17 (F := Ideal) x3 (ix2 r k) = max (val_main_v13 (F := Ideal) x3 (ix1 r)) one := by
  rw [val_main_v17_apply, val_main_v16_apply, val_main_v15_apply, val_main_v14_apply, val_main_cst_3_apply, didx_eq]
  rfl

/-- The first 128 concatenated features of row r are its own. -/
theorem feat_lo (x0 x1 : (⟨S50000x128, .f32⟩ : BufTy).Contents (Elt Ideal)) (x2 x3 : (⟨S600000, .i32⟩ : BufTy).Contents (Elt Ideal))
    (r : Fin 50000) (k : Fin 128) :
    val_main_v19 (F := Ideal) x0 x1 x2 x3 (ix2 r (lo k)) = x1 (ix2 r k) := by
  unfold val_main_v19
  exact concatenate_pair_apply_left (t := S50000x256) (s₁ := S50000x128) (s₂ := S50000x128) (1 : Fin 2) x1 (val_main_v18 (F := Ideal) x0 x2 x3)
    Facts₀.concatenates_S50000x128_S50000x128_S50000x256_d1 (ix2 r (lo k)) rfl (ix2 r k)
    (fun b => by match b with | ⟨0, _⟩ => rfl | ⟨1, _⟩ => rfl)

/-- The last 128 are its neighbour mean. -/
theorem feat_hi (x0 x1 : (⟨S50000x128, .f32⟩ : BufTy).Contents (Elt Ideal)) (x2 x3 : (⟨S600000, .i32⟩ : BufTy).Contents (Elt Ideal))
    (r : Fin 50000) (k : Fin 128) :
    val_main_v19 (F := Ideal) x0 x1 x2 x3 (ix2 r (hi k))
      = mean (val_main_v9 (F := Ideal) x0 x2 x3) (val_main_v13 (F := Ideal) x3) r k := by
  unfold val_main_v19
  refine (concatenate_pair_apply_right (t := S50000x256) (s₁ := S50000x128) (s₂ := S50000x128) (1 : Fin 2) x1 (val_main_v18 (F := Ideal) x0 x2 x3)
    Facts₀.concatenates_S50000x128_S50000x128_S50000x256_d1 (ix2 r (hi k)) rfl rfl (ix2 r k)
    (fun b hb => by match b with | ⟨0, _⟩ => rfl | ⟨1, _⟩ => exact absurd rfl hb) (by show k.val + 128 = 128 + k.val; omega)).trans ?_
  rw [val_main_v18_apply, floor_apply]
  rfl

/-! ## The result -/

/-- The plain program's result is the layer of its arguments, N and D its own scatter-adds. -/
theorem result_eq (x0 x1 : (⟨S50000x128, .f32⟩ : BufTy).Contents (Elt Ideal)) (x2 x3 : (⟨S600000, .i32⟩ : BufTy).Contents (Elt Ideal))
    (x4 : (⟨S128x256, .f32⟩ : BufTy).Contents (Elt Ideal)) (x5 : (⟨S128, .f32⟩ : BufTy).Contents (Elt Ideal)) :
    val_main_v24 (F := Ideal) x0 x1 x2 x3 x4 x5
      = layer x1 (val_main_v9 (F := Ideal) x0 x2 x3) (val_main_v13 (F := Ideal) x3) x4 x5 := by
  funext i
  obtain ⟨r, o, rfl⟩ : ∃ (r : Fin 50000) (o : Fin 128), i = ix2 r o := ⟨i 0, i 1, eq_ix2 i⟩
  rw [layer_apply, val_main_v24_apply, val_main_v21_apply, val_main_v23_apply, val_main_v22_apply, bidx_eq, sum_halves]
  simp only [lidx_eq, ridx_eq, val_main_v20_apply, widx_eq, feat_lo, feat_hi]
  rfl

end Cert.Sage.Ref

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.SageBody.lean ====
/-
  What one tile of the layer computes, entry by entry, on the extended reals.

  A tile is 5000 rows. From the rows' own features x (5000 × 128), the rows' summed neighbour features s (5000 × 128),
  the rows' degrees d as a column (5000 × 1), the two halves A, B of the transposed weight (128 × 128 each) and the
  bias as a row c (1 × 128), the tile's entry (p, q) is

      Σ_k x(p, k) · A(k, q)  +  Σ_k (s(p, k) / max(d(p), 1)) · B(k, q)  +  c(q).

  Each of the two matrix products starts from zero, so it is its plain sum of products; a change of float format is
  the identity on the extended reals; the degree column is stretched along the row and the bias row down the tile.
-/
import proofs.«132158_j61735859912840_2_alg».proof.Proof.Gen.KernelIdeal.Skeleton
import proofs.«132158_j61735859912840_2_alg».proof.Proof.LibPlainMatmul
import proofs.«132158_j61735859912840_2_alg».proof.Proof.LibKeepdims
import proofs.«132158_j61735859912840_2_alg».proof.Proof.SageSpec
import Idealize.ShloMosaic.Lib.Pipeline.Value
import Idealize.ShloMosaic.Lib.ValueLayout

noncomputable section

namespace Cert.Sage.Body

open Cert.KernelIdeal Cert.KernelIdeal.Gen Idealize.ShloMosaic Idealize.ShloMosaic.ValueIdx

/-- A 5000 × 128 by 128 × 128 product started from zero, at (p, q): the sum over k of the entries' products. -/
theorem mm_apply (l : FVec Ideal S5000x128 .bf16) (r : FVec Ideal S128x128 .bf16) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) :=
  PlainMatmul.matmul_zero_apply Facts₀.dot_S5000x128_S128x128_S5000x128_1_0_0_1_n_n_wf none l r p q

/-- The tile's stored value at (p, q). -/
theorem pay_apply (v0 : Vec Ideal S5000x1 .f32) (v4 v8 : Vec Ideal S5000x128 .f32) (v11 v14 : Vec Ideal S128x128 .f32)
    (v20 : Vec Ideal S1x128 .f32) (p : Fin 5000) (q : Fin 128) :
    k0_pay1 (F := Ideal) v0 v4 v8 v11 v14 v20 (ix2 p q)
      = (∑ k : Fin 128, v8 (ix2 p k) * v11 (ix2 k q))
        + (∑ k : Fin 128, Ideal.div (v4 (ix2 p k)) (max (v0 (ix2 p (0 : Fin 1))) one) * v14 (ix2 k q))
        + v20 (ix2 (0 : Fin 1) q) := by
  unfold k0_pay1
  simp only [addf_apply, shapeCast_self]
  rw [mm_apply, mm_apply, broadcastTo_1b_ab_apply]
  simp only [truncf_apply, divf_apply, Keepdims.broadcastTo_a1_ab_apply, maximumf_apply, broadcast_apply]
  rfl

/-- A tile's entry is the layer's, in its split form, at the array's row r and column o, once the tile's inputs are
    known to be the arrays' entries there: row p of the tile is row r of the arrays, the tile's column q is column o,
    and the two weight halves and the bias are read whole. -/
theorem tile_eq (H N : (⟨2, ![50000, 128]⟩ : Shape).Idx → EReal) (D1 : (⟨2, ![50000, 1]⟩ : Shape).Idx → EReal)
    (Wd Wn : (⟨2, ![128, 128]⟩ : Shape).Idx → EReal) (b2 : (⟨2, ![1, 128]⟩ : Shape).Idx → EReal)
    (v0 : Vec Ideal S5000x1 .f32) (v4 v8 : Vec Ideal S5000x128 .f32) (v11 v14 : Vec Ideal S128x128 .f32)
    (v20 : Vec Ideal S1x128 .f32) (p : Fin 5000) (q : Fin 128) (r : Fin 50000) (o : Fin 128)
    (h8 : ∀ k : Fin 128, v8 (ix2 p k) = H (ix2 r k))
    (h4 : ∀ k : Fin 128, v4 (ix2 p k) = N (ix2 r k))
    (h0 : v0 (ix2 p (0 : Fin 1)) = D1 (ix2 r (0 : Fin 1)))
    (h11 : ∀ k : Fin 128, v11 (ix2 k q) = Wd (ix2 k o))
    (h14 : ∀ k : Fin 128, v14 (ix2 k q) = Wn (ix2 k o))
    (h20 : v20 (ix2 (0 : Fin 1) q) = b2 (ix2 (0 : Fin 1) o)) :
    k0_pay1 (F := Ideal) v0 v4 v8 v11 v14 v20 (ix2 p q) = layerSplitAt H N D1 Wd Wn b2 r o := by
  rw [pay_apply]
  unfold layerSplitAt
  simp only [h8, h4, h0, h11, h14, h20]

end Cert.Sage.Body

end
-- ==== Proof.SageBlocks.lean ====
/-
  From tiles to the whole array.

  The call runs over ten grid points; point t is handed rows 5000·t … 5000·t + 4999 of the rows' own features, of the
  neighbour sums and of the degree column, the two weight halves and the bias row whole, and writes back rows
  5000·t … 5000·t + 4999 of the result. What it writes back is those rows of ONE array — the layer in its split form
  over the arrays as the call finds them — and the ten row blocks cover the result, so the result ends as that array.
-/
import proofs.«132158_j61735859912840_2_alg».proof.Proof.Gen.KernelIdeal.Value
import proofs.«132158_j61735859912840_2_alg».proof.Proof.SageBody
import Idealize.ShloMosaic.Lib.Pipeline.Value

noncomputable section

namespace Cert.Sage.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block each window hands to point t: the three row-tiled inputs and the output move with t along the rows;
    the two weight halves and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## A tile, over any arrays

  What a grid point writes back is stated first over an ARBITRARY family of arrays A, one per buffer, standing for
  the arrays as the call finds them: the statement uses nothing about how they were computed. -/

section AnyArrays

variable (c : Dev nD) (A : (b : Ref sig .tc) → Buf (Elt Ideal) ((c : Thread nD τ).loc b))

/-- Window w's block at point t, read off the arrays A. -/
def blockOf (w : Fin cfg0.W) (t : Fin cfg0.N) : ((cfg0.win w).xblock (cfg0.grid.coords t)).Idx → Elt Ideal (cfg0.win w).elt :=
  ((cfg0.win w).blk t).view.read (Elt Ideal) (A (Pipeline.arrRef spec0 w))

/-- The layer in its split form over the arrays A. -/
abbrev foundOf : S50000x128.Idx → EReal :=
  layerSplit (A main_arg1) (A main_v9) (A main_v14) (A main_v16) (A main_v17) (A main_v18)

/-- What the body leaves at point t, from the blocks of A there, is rows 5000·t … of `foundOf`. -/
theorem tile_written (t : Fin cfg0.N) :
    (cfg0.win 6).cut (grid0.coords t)
        (out0_6 (blockOf c A 0 t) (blockOf c A 1 t) (blockOf c A 2 t) (blockOf c A 3 t) (blockOf c A 4 t) (blockOf c A 5 t))
      = ((cfg0.win 6).blk t).view.read (Elt Ideal) (foundOf c A) := by
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e60, e61⟩ := idx_facts t
  have ht : t.val < 10 := Nat.lt_of_lt_of_eq t.isLt N_0
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hq : q.val < 128 := q.isLt
  obtain ⟨r, hr⟩ : ∃ r : Fin 50000, r.val = t.val * 5000 + p.val := ⟨⟨t.val * 5000 + p.val, by omega⟩, rfl⟩
  -- the entry of the result's block is entry (r, q) of the array
  have e6 : ((cfg0.win 6).blk t).view.emb (ix2 p q) = ix2 r q := by
    funext a; apply Fin.ext
    match a with
    | ⟨0, _⟩ => show win0_6.index t (0 : Fin 2) * 5000 + 1 * p.val = r.val; omega
    | ⟨1, _⟩ => show win0_6.index t (1 : Fin 2) * 128 + 1 * q.val = q.val; omega
  show k0_pay1 (blockOf c A 2 t) (blockOf c A 1 t) (blockOf c A 0 t) (blockOf c A 3 t) (blockOf c A 4 t) (blockOf c A 5 t) (ix2 p q)
    = foundOf c A (((cfg0.win 6).blk t).view.emb (ix2 p q))
  rw [e6]
  refine Body.tile_eq (A main_arg1) (A main_v9) (A main_v14) (A main_v16) (A main_v17) (A main_v18)
    (blockOf c A 2 t) (blockOf c A 1 t) (blockOf c A 0 t) (blockOf c A 3 t) (blockOf c A 4 t) (blockOf c A 5 t) p q r q ?_ ?_ ?_ ?_ ?_ ?_
  · intro k
    have hk : k.val < 128 := k.isLt
    have e : ((cfg0.win 0).blk t).view.emb (ix2 p k) = ix2 r k := by
      funext a; apply Fin.ext
      match a with
      | ⟨0, _⟩ => show win0_0.index t (0 : Fin 2) * 5000 + 1 * p.val = r.val; omega
      | ⟨1, _⟩ => show win0_0.index t (1 : Fin 2) * 128 + 1 * k.val = k.val; omega
    show A main_arg1 (((cfg0.win 0).blk t).view.emb (ix2 p k)) = A main_arg1 (ix2 r k)
    rw [e]
  · intro k
    have hk : k.val < 128 := k.isLt
    have e : ((cfg0.win 1).blk t).view.emb (ix2 p k) = ix2 r k := by
      funext a; apply Fin.ext
      match a with
      | ⟨0, _⟩ => show win0_1.index t (0 : Fin 2) * 5000 + 1 * p.val = r.val; omega
      | ⟨1, _⟩ => show win0_1.index t (1 : Fin 2) * 128 + 1 * k.val = k.val; omega
    show A main_v9 (((cfg0.win 1).blk t).view.emb (ix2 p k)) = A main_v9 (ix2 r k)
    rw [e]
  · have e : ((cfg0.win 2).blk t).view.emb (ix2 p (0 : Fin 1)) = ix2 r (0 : Fin 1) := by
      funext a; apply Fin.ext
      match a with
      | ⟨0, _⟩ => show win0_2.index t (0 : Fin 2) * 5000 + 1 * p.val = r.val; omega
      | ⟨1, _⟩ => show win0_2.index t (1 : Fin 2) * 1 + 1 * 0 = 0; omega
    show A main_v14 (((cfg0.win 2).blk t).view.emb (ix2 p (0 : Fin 1))) = A main_v14 (ix2 r (0 : Fin 1))
    rw [e]
  · intro k
    have hk : k.val < 128 := k.isLt
    have e : ((cfg0.win 3).blk t).view.emb (ix2 k q) = ix2 k q := by
      funext a; apply Fin.ext
      match a with
      | ⟨0, _⟩ => show win0_3.index t (0 : Fin 2) * 128 + 1 * k.val = k.val; omega
      | ⟨1, _⟩ => show win0_3.index t (1 : Fin 2) * 128 + 1 * q.val = q.val; omega
    show A main_v16 (((cfg0.win 3).blk t).view.emb (ix2 k q)) = A main_v16 (ix2 k q)
    rw [e]
  · intro k
    have hk : k.val < 128 := k.isLt
    have e : ((cfg0.win 4).blk t).view.emb (ix2 k q) = ix2 k q := by
      funext a; apply Fin.ext
      match a with
      | ⟨0, _⟩ => show win0_4.index t (0 : Fin 2) * 128 + 1 * k.val = k.val; omega
      | ⟨1, _⟩ => show win0_4.index t (1 : Fin 2) * 128 + 1 * q.val = q.val; omega
    show A main_v17 (((cfg0.win 4).blk t).view.emb (ix2 k q)) = A main_v17 (ix2 k q)
    rw [e]
  · have e : ((cfg0.win 5).blk t).view.emb (ix2 (0 : Fin 1) q) = ix2 (0 : Fin 1) q := by
      funext a; apply Fin.ext
      match a with
      | ⟨0, _⟩ => show win0_5.index t (0 : Fin 2) * 1 + 1 * 0 = 0; omega
      | ⟨1, _⟩ => show win0_5.index t (1 : Fin 2) * 128 + 1 * q.val = q.val; omega
    show A main_v18 (((cfg0.win 5).blk t).view.emb (ix2 (0 : Fin 1) q)) = A main_v18 (ix2 (0 : Fin 1) q)
    rw [e]

end AnyArrays

/-! ## The call's arrays -/

/-- The array the result ends as: the layer in its split form over the arrays as the call finds them. -/
abbrev found (c : Dev nD) : S50000x128.Idx → EReal := foundOf c (V m c)

/-- What point t writes back is rows 5000·t … of `found`: the tile statement at the arrays the call finds. -/
theorem flushed_eq (c : Dev nD) (t : Fin cfg0.N) :
    (dats m 0 c).flushed 6 t = ((cfg0.win 6).blk t).view.read (Elt Ideal) (found m c) :=
  (flushed6 m c t).trans (tile_written c (V m c) t)

/-- An index is in point t's block of the result iff each coordinate is in the block's range. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v19).slice (win0_6.rect t)).set ↔ _
  rw [View.set_slice_whole, Rect.mem_set_unit]
  exact Iff.rfl

/-- Row i₀ of the result is written by point i₀ / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by rw [hN]; omega⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- The result array after the run. -/
theorem final (c : Dev nD) : (dats m 0 c).arrAt 6 cfg0.N = found m c :=
  (dats m 0 c).arrAt_eq_of_cover 6 (found m c) (fun t _ => flushed_eq m c t) cover

/-- The call's run, read: the result ends as `found`, the arguments as they were. -/
theorem run : θ_run defs (onTc (τ := τ) (main (F := Ideal))) ⟨m, fun _ => 0, ρ⟩ fun r => ∀ c : Dev nD,
      r.2.mem ((c : Thread nD τ).loc main_v19) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Sage.Blocks

end
-- ==== Proof.SageHost.lean ====
/-
  The arrays the tiled call is handed, read back to the arguments.

  Before the call the program gathers the source rows along the edges and scatter-adds them, and a vector of ones, by
  destination — the neighbour sums N and the degrees D — and reshapes the degrees into a column, transposes the weight
  and cuts it into its first and last 128 rows, and reshapes the bias into a row. The plain program computes N and D by
  the same gather and the same two scatter-adds of the same arguments, so they are taken as they are, never opened.
  The other four arrays read as entries of D, W and b, which turns the split form of the layer, over the arrays as the
  call finds them, into the layer of the arguments.
-/
import proofs.«132158_j61735859912840_2_alg».proof.Proof.Gen.ReferenceIdeal.Read
import proofs.«132158_j61735859912840_2_alg».proof.Proof.SageBlocks
import proofs.«132158_j61735859912840_2_alg».proof.Proof.LibKeepdims
import Idealize.ShloMosaic.Lib.StableHlo.Run
import Idealize.ShloMosaic.Lib.ValueLayout

noncomputable section

namespace Cert.Sage.Host

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The neighbour sums of the arguments, as the plain program's stages spell them. -/
abbrev neigh (c : Dev nD) : (⟨2, ![50000, 128]⟩ : Shape).Idx → EReal :=
  Cert.ReferenceIdeal.Read.val_main_v9 (F := Ideal) (m ((c : Thread nD τ).loc main_arg0)) (m ((c : Thread nD τ).loc main_arg2))
    (m ((c : Thread nD τ).loc main_arg3))

/-- The degrees of the arguments, as the plain program's stages spell them. -/
abbrev deg (c : Dev nD) : (⟨1, ![50000]⟩ : Shape).Idx → EReal :=
  Cert.ReferenceIdeal.Read.val_main_v13 (F := Ideal) (m ((c : Thread nD τ).loc main_arg3))

/-- The call finds the neighbour sums: the same gather and scatter-add of the same arguments. -/
theorem V_neigh (c : Dev nD) : (V m c main_v9 : S50000x128.Idx → EReal) = neigh m c := by
  dsimp only [V, hostOps0]
  after_results <;> rfl

/-- The degree column's entry in row r is the degree of r. -/
theorem V_deg_apply (c : Dev nD) (r : Fin 50000) :
    (V m c main_v14 : S50000x1.Idx → EReal) (ix2 r (0 : Fin 1)) = deg m c (ix1 r) := by
  have e : (V m c main_v14 : S50000x1.Idx → EReal)
      = shapeCast S50000x1 (deg m c) Facts₀.shapeCasts_S50000_S50000x1 := by
    dsimp only [V, hostOps0]
    after_results <;> rfl
  rw [e]
  exact Keepdims.shapeCast_a_a1_apply _ _ r 0

/-- Entry (k, o) of the first weight half is W(o, k). -/
theorem V_wd_apply (c : Dev nD) (k o : Fin 128) :
    (V m c main_v16 : S128x128.Idx → EReal) (ix2 k o)
      = (m ((c : Thread nD τ).loc main_arg4) : S128x256.Idx → EReal) (ix2 o (lo k)) := by
  have e : (V m c main_v16 : S128x128.Idx → EReal)
      = extractStridedSlice S128x128 ![0, 0]
          (transpose S256x128 [1, 0] (m ((c : Thread nD τ).loc main_arg4)) Facts₀.transposes_S128x256_S256x128_1_0)
          Facts₀.slices_S256x128_S128x128_0_0 := by
    dsimp only [V, hostOps0]
    after_results <;> rfl
  rw [e]
  exact (slice2_axis0_apply 0 _ Facts₀.slices_S256x128_S128x128_0_0 k o (lo k) (by show k.val = 0 + k.val; omega)).trans
    (transpose_ix2_apply _ Facts₀.transposes_S128x256_S256x128_1_0 (lo k) o)

/-- Entry (k, o) of the second weight half is W(o, 128 + k). -/
theorem V_wn_apply (c : Dev nD) (k o : Fin 128) :
    (V m c main_v17 : S128x128.Idx → EReal) (ix2 k o)
      = (m ((c : Thread nD τ).loc main_arg4) : S128x256.Idx → EReal) (ix2 o (hi k)) := by
  have e : (V m c main_v17 : S128x128.Idx → EReal)
      = extractStridedSlice S128x128 ![128, 0]
          (transpose S256x128 [1, 0] (m ((c : Thread nD τ).loc main_arg4)) Facts₀.transposes_S128x256_S256x128_1_0)
          Facts₀.slices_S256x128_S128x128_128_0 := by
    dsimp only [V, hostOps0]
    after_results <;> rfl
  rw [e]
  exact (slice2_axis0_apply 128 _ Facts₀.slices_S256x128_S128x128_128_0 k o (hi k) rfl).trans
    (transpose_ix2_apply _ Facts₀.transposes_S128x256_S256x128_1_0 (hi k) o)

/-- The bias row's entry in column o is b(o). -/
theorem V_bias_apply (c : Dev nD) (o : Fin 128) :
    (V m c main_v18 : S1x128.Idx → EReal) (ix2 (0 : Fin 1) o)
      = (m ((c : Thread nD τ).loc main_arg5) : S128.Idx → EReal) (ix1 o) := by
  have e : (V m c main_v18 : S1x128.Idx → EReal)
      = shapeCast S1x128 (m ((c : Thread nD τ).loc main_arg5)) Facts₀.shapeCasts_S128_S1x128 := by
    dsimp only [V, hostOps0]
    after_results <;> rfl
  rw [e]
  exact shapeCast_a_1a_apply _ _ 0 o

/-- The array the call's result ends as is the layer of the arguments. -/
theorem found_eq (c : Dev nD) :
    Blocks.found m c = layer (m ((c : Thread nD τ).loc main_arg1)) (neigh m c) (deg m c)
      (m ((c : Thread nD τ).loc main_arg4)) (m ((c : Thread nD τ).loc main_arg5)) := by
  have eh : (V m c main_arg1 : S50000x128.Idx → EReal) = m ((c : Thread nD τ).loc main_arg1) := V_main_arg1 m c
  show layerSplit (V m c main_arg1) (V m c main_v9) (V m c main_v14) (V m c main_v16) (V m c main_v17) (V m c main_v18) = _
  rw [eh, V_neigh m c]
  exact layerSplit_eq_layer _ _ _ _ _ _ _ _ _ (V_deg_apply m c) (V_wd_apply m c) (V_wn_apply m c) (V_bias_apply m c)

end Cert.Sage.Host

end
-- ==== Proof.lean ====
/-
  A mean-aggregation graph layer, tiled, against its plain form — equal on the extended reals.

  Both programs first gather the source rows along the edges and scatter-add them, and a vector of ones, by
  destination: the neighbour sums N and the degrees D, by the same operations of the same arguments. The plain program
  then joins each row's own features h(r, ·) with its neighbour mean N(r, ·) / max(D(r), 1) into 256 features,
  contracts them with the 256 columns of the weight W and adds the bias b. The tiled program cuts the transposed
  weight into its two 128-row halves and, 5000 rows at a time, adds the product of the rows' own features with the
  first half, the product of their neighbour means with the second half, and the bias. At row r and column o both are

      Σ_{k<128} h(r, k) · W(o, k)  +  Σ_{k<128} (N(r, k) / max(D(r), 1)) · W(o, 128 + k)  +  b(o),

  the plain program's single 256-term sum being the sum of its two halves (SageSpec). That law holds in any
  commutative monoid, so on the extended reals without any finiteness: the precondition is not used. A change of
  float format is the identity on the extended reals, and a matrix product started from zero is its plain sum.

  SageSpec states the layer; SageRef reads the plain program's stages into it; SageBody reads a tile's stored value;
  SageBlocks carries the ten row blocks to the whole result; SageHost reads the arrays the tiled call is handed back
  to the arguments. The idealized program is the program's own text read on the extended reals: nothing was rewritten,
  so there is nothing to preserve.
-/
import proofs.«132158_j61735859912840_2_alg».proof.Defs
import proofs.«132158_j61735859912840_2_alg».proof.Proof.Gen.Kernel
import proofs.«132158_j61735859912840_2_alg».proof.Proof.Gen.Kernel.Skeleton
import proofs.«132158_j61735859912840_2_alg».proof.Proof.Gen.Kernel.Launch
import proofs.«132158_j61735859912840_2_alg».proof.Proof.Gen.Kernel.Points
import proofs.«132158_j61735859912840_2_alg».proof.Proof.Gen.Kernel.Frame
import proofs.«132158_j61735859912840_2_alg».proof.Proof.Gen.KernelIdeal
import proofs.«132158_j61735859912840_2_alg».proof.Proof.Gen.KernelIdeal.Skeleton
import proofs.«132158_j61735859912840_2_alg».proof.Proof.Gen.KernelIdeal.Launch
import proofs.«132158_j61735859912840_2_alg».proof.Proof.Gen.KernelIdeal.Points
import proofs.«132158_j61735859912840_2_alg».proof.Proof.Gen.KernelIdeal.Frame
import proofs.«132158_j61735859912840_2_alg».proof.Proof.Gen.ReferenceIdeal
import proofs.«132158_j61735859912840_2_alg».proof.Proof.Gen.Pre_finite_inputs
import proofs.«132158_j61735859912840_2_alg».proof.Proof.Gen.KernelIdeal.Value
import proofs.«132158_j61735859912840_2_alg».proof.Proof.Gen.ReferenceIdeal.Run
import proofs.«132158_j61735859912840_2_alg».proof.Proof.Gen.ReferenceIdeal.Read
import proofs.«132158_j61735859912840_2_alg».proof.Proof.SageRef
import proofs.«132158_j61735859912840_2_alg».proof.Proof.SageHost
import Idealize.ShloMosaic.Adequacy
import Idealize.ShloMosaic.Init

noncomputable section

namespace Cert.Proof

open Idealize.ShloMosaic Idealize.SL.Sem

/-- The tiled program, word by word, runs and leaves its arguments as they were. -/
theorem frame_k : Cert.frame_Kernel := fun m ρ _ => Cert.Kernel.Gen.frame m ρ

/-- So does it read on the extended reals. -/
theorem frame_ki : Cert.frame_KernelIdeal := fun m ρ _ => Cert.KernelIdeal.Gen.frame m ρ

/-- The plain program runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the layer of those arguments. -/
theorem algebraic : Cert.algebraic_KernelIdeal_ReferenceIdeal := by
  intro m ρ m' ρ' _ hagree
  refine ⟨fun c => Cert.Sage.Blocks.found m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v24_eq, Cert.Sage.Ref.result_eq, a0, a1, a2, a3, a4, a5]
  exact (Cert.Sage.Host.found_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
